-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  main_v8
-- ==== Kernel.lean ====
abbrev S8388608 : Shape := ⟨1, ![8388608]⟩
abbrev S8388608x16 : Shape := ⟨2, ![8388608, 16]⟩
abbrev S4096 : Shape := ⟨1, ![4096]⟩
abbrev S4096x16 : Shape := ⟨2, ![4096, 16]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608x16, .f32⟩
  | .local _ .vmem, ⟨0, _⟩ => ⟨S4096, .f32⟩
  | .local _ .vmem, ⟨1, _⟩ => ⟨S4096, .f32⟩
  | .local _ .vmem, ⟨2, _⟩ => ⟨S4096, .f32⟩
  | .local _ .vmem, ⟨3, _⟩ => ⟨S4096, .f32⟩
  | .local _ .vmem, ⟨4, _⟩ => ⟨S4096x16, .f32⟩
  | .local _ .vmem, ⟨5, _⟩ => ⟨S4096x16, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2048], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096_S4096_0 : ∀ a, (![0] : Fin 1 → Nat) a + S4096.size a ≤ S4096.size a
  h_S4096 : 0 < S4096.numel
  shapeCasts_S4096_S4096x1 : S4096.ShapeCasts S4096x1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  inb_S4096x16_S4096x16_0_0 : ∀ a, (![0, 0] : Fin 2 → Nat) a + S4096x16.size a ≤ S4096x16.size a
  h_S4096x16 : 0 < S4096x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S8388608.size a
  hwx0_0 : ∀ i : grid0.Coords, EltTy.bits .f32 = 32 ∨ (Rect.block (s := S8388608) S4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S8388608.size a
  hwx0_1 : ∀ i : grid0.Coords, EltTy.bits .f32 = 32 ∨ (Rect.block (s := S8388608) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S8388608x16.size a
  hwx0_2 : ∀ i : grid0.Coords, EltTy.bits .f32 = 32 ∨ (Rect.block (s := S8388608x16) S4096x16.size (cc0_transform_2 i) (hinb0_2 i)).WholeWords (EltTy.packing .f32)

variable [Facts₀]

abbrev win0_0 : Pipeline.Window sig grid0 :=
  Pipeline.Window.ofSpec (Memref.whole main_arg0) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608 : Shape := ⟨1, ![8388608]⟩
abbrev S_ : Shape := ⟨0, ![]⟩
abbrev S8388608x1 : Shape := ⟨2, ![8388608, 1]⟩
abbrev S8388608x16 : Shape := ⟨2, ![8388608, 16]⟩

abbrev nBuf : Space → Nat
  | .hbm => 195
  | .vmem => 0
  | .smem => 0
  | _ => 0

abbrev hbmTy0_0 (i : Nat) : BufTy := match i % 128 with
  | 0 => ⟨S8388608, .f32⟩
  | 1 => ⟨S8388608, .f32⟩
  | 2 => ⟨S8388608, .f32⟩
  | 3 => ⟨S_, .f32⟩
  | 4 => ⟨S8388608, .f32⟩
  | 5 => ⟨S8388608, .f32⟩
  | 6 => ⟨S_, .f32⟩
  | 7 => ⟨S_, .f32⟩
  | 8 => ⟨S8388608, .f32⟩
  | 9 => ⟨S8388608, .f32⟩
  | 10 => ⟨S8388608, .f32⟩
  | 11 => ⟨S_, .f32⟩
  | 12 => ⟨S8388608, .f32⟩
  | 13 => ⟨S_, .f32⟩
  | 14 => ⟨S8388608, .f32⟩
  | 15 => ⟨S8388608, .f32⟩
  | 16 => ⟨S8388608, .f32⟩
  | 17 => ⟨S_, .f32⟩
  | 18 => ⟨S8388608, .f32⟩
  | 19 => ⟨S8388608, .f32⟩
  | 20 => ⟨S8388608, .f32⟩
  | 21 => ⟨S_, .f32⟩
  | 22 => ⟨S8388608, .f32⟩
  | 23 => ⟨S8388608, .f32⟩
  | 24 => ⟨S8388608, .f32⟩
  | 25 => ⟨S_, .f32⟩
  | 26 => ⟨S8388608, .f32⟩
  | 27 => ⟨S8388608, .f32⟩
  | 28 => ⟨S8388608, .f32⟩
  | 29 => ⟨S_, .f32⟩
  | 30 => ⟨S8388608, .f32⟩
  | 31 => ⟨S8388608, .f32⟩
  | 32 => ⟨S8388608, .f32⟩
  | 33 => ⟨S_, .f32⟩
  | 34 => ⟨S8388608, .f32⟩
  | 35 => ⟨S8388608, .f32⟩
  | 36 => ⟨S8388608, .f32⟩
  | 37 => ⟨S_, .f32⟩
  | 38 => ⟨S8388608, .f32⟩
  | 39 => ⟨S8388608, .f32⟩
  | 40 => ⟨S8388608, .f32⟩
  | 41 => ⟨S_, .f32⟩
  | 42 => ⟨S8388608, .f32⟩
  | 43 => ⟨S8388608, .f32⟩
  | 44 => ⟨S8388608, .f32⟩
  | 45 => ⟨S_, .f32⟩
  | 46 => ⟨S8388608, .f32⟩
  | 47 => ⟨S8388608, .f32⟩
  | 48 => ⟨S_, .f32⟩
  | 49 => ⟨S8388608, .f32⟩
  | 50 => ⟨S8388608, .f32⟩
  | 51 => ⟨S8388608, .f32⟩
  | 52 => ⟨S_, .f32⟩
  | 53 => ⟨S8388608, .f32⟩
  | 54 => ⟨S8388608, .f32⟩
  | 55 => ⟨S8388608, .f32⟩
  | 56 => ⟨S_, .f32⟩
  | 57 => ⟨S8388608, .f32⟩
  | 58 => ⟨S8388608, .f32⟩
  | 59 => ⟨S_, .f32⟩
  | 60 => ⟨S8388608, .f32⟩
  | 61 => ⟨S8388608, .f32⟩
  | 62 => ⟨S8388608, .f32⟩
  | 63 => ⟨S_, .f32⟩
  | 64 => ⟨S8388608, .f32⟩
  | 65 => ⟨S8388608, .f32⟩
  | 66 => ⟨S8388608, .f32⟩
  | 67 => ⟨S_, .f32⟩
  | 68 => ⟨S8388608, .f32⟩
  | 69 => ⟨S8388608, .f32⟩
  | 70 => ⟨S_, .f32⟩
  | 71 => ⟨S8388608, .f32⟩
  | 72 => ⟨S8388608, .f32⟩
  | 73 => ⟨S_, .f32⟩
  | 74 => ⟨S8388608, .f32⟩
  | 75 => ⟨S8388608, .f32⟩
  | 76 => ⟨S_, .f32⟩
  | 77 => ⟨S8388608, .f32⟩
  | 78 => ⟨S8388608, .f32⟩
  | 79 => ⟨S8388608, .f32⟩
  | 80 => ⟨S8388608, .f32⟩
  | 81 => ⟨S_, .f32⟩
  | 82 => ⟨S8388608, .f32⟩
  | 83 => ⟨S8388608, .f32⟩
  | 84 => ⟨S_, .f32⟩
  | 85 => ⟨S8388608, .f32⟩
  | 86 => ⟨S8388608, .f32⟩
  | 87 => ⟨S_, .f32⟩
  | 88 => ⟨S8388608, .f32⟩
  | 89 => ⟨S8388608, .f32⟩
  | 90 => ⟨S8388608, .f32⟩
  | 91 => ⟨S8388608, .f32⟩
  | 92 => ⟨S_, .f32⟩
  | 93 => ⟨S8388608, .f32⟩
  | 94 => ⟨S8388608, .f32⟩
  | 95 => ⟨S_, .f32⟩
  | 96 => ⟨S8388608, .f32⟩
  | 97 => ⟨S8388608, .f32⟩
  | 98 => ⟨S8388608, .f32⟩
  | 99 => ⟨S8388608, .f32⟩
  | 100 => ⟨S_, .f32⟩
  | 101 => ⟨S8388608, .f32⟩
  | 102 => ⟨S8388608, .f32⟩
  | 103 => ⟨S_, .f32⟩
  | 104 => ⟨S8388608, .f32⟩
  | 105 => ⟨S8388608, .f32⟩
  | 106 => ⟨S8388608, .f32⟩
  | 107 => ⟨S8388608, .f32⟩
  | 108 => ⟨S_, .f32⟩
  | 109 => ⟨S8388608, .f32⟩
  | 110 => ⟨S8388608, .f32⟩
  | 111 => ⟨S_, .f32⟩
  | 112 => ⟨S8388608, .f32⟩
  | 113 => ⟨S8388608, .f32⟩
  | 114 => ⟨S_, .f32⟩
  | 115 => ⟨S8388608, .f32⟩
  | 116 => ⟨S8388608, .f32⟩
  | 117 => ⟨S8388608, .f32⟩
  | 118 => ⟨S8388608, .f32⟩
  | 119 => ⟨S_, .f32⟩
  | 120 => ⟨S8388608, .f32⟩
  | 121 => ⟨S8388608, .f32⟩
  | 122 => ⟨S_, .f32⟩
  | 123 => ⟨S8388608, .f32⟩
  | 124 => ⟨S8388608, .f32⟩
  | 125 => ⟨S8388608, .f32⟩
  | 126 => ⟨S8388608, .f32⟩
  | 127 => ⟨S_, .f32⟩
  | _ => ⟨S8388608, .f32⟩

abbrev hbmTy0_1 (i : Nat) : BufTy := match i % 128 with
  | 0 => ⟨S8388608, .f32⟩
  | 1 => ⟨S8388608, .f32⟩
  | 2 => ⟨S_, .f32⟩
  | 3 => ⟨S8388608, .f32⟩
  | 4 => ⟨S8388608, .f32⟩
  | 5 => ⟨S8388608, .f32⟩
  | 6 => ⟨S8388608, .f32⟩
  | 7 => ⟨S_, .f32⟩
  | 8 => ⟨S8388608, .f32⟩
  | 9 => ⟨S8388608, .f32⟩
  | 10 => ⟨S_, .f32⟩
  | 11 => ⟨S8388608, .f32⟩
  | 12 => ⟨S8388608, .f32⟩
  | 13 => ⟨S8388608, .f32⟩
  | 14 => ⟨S8388608, .f32⟩
  | 15 => ⟨S_, .f32⟩
  | 16 => ⟨S8388608, .f32⟩
  | 17 => ⟨S8388608, .f32⟩
  | 18 => ⟨S_, .f32⟩
  | 19 => ⟨S8388608, .f32⟩
  | 20 => ⟨S8388608, .f32⟩
  | 21 => ⟨S8388608, .f32⟩
  | 22 => ⟨S8388608, .f32⟩
  | 23 => ⟨S_, .f32⟩
  | 24 => ⟨S8388608, .f32⟩
  | 25 => ⟨S8388608, .f32⟩
  | 26 => ⟨S_, .f32⟩
  | 27 => ⟨S8388608, .f32⟩
  | 28 => ⟨S8388608, .f32⟩
  | 29 => ⟨S_, .f32⟩
  | 30 => ⟨S8388608, .f32⟩
  | 31 => ⟨S8388608, .f32⟩
  | 32 => ⟨S8388608, .f32⟩
  | 33 => ⟨S8388608, .f32⟩
  | 34 => ⟨S_, .f32⟩
  | 35 => ⟨S8388608, .f32⟩
  | 36 => ⟨S8388608, .f32⟩
  | 37 => ⟨S_, .f32⟩
  | 38 => ⟨S8388608, .f32⟩
  | 39 => ⟨S8388608, .f32⟩
  | 40 => ⟨S8388608, .f32⟩
  | 41 => ⟨S8388608, .f32⟩
  | 42 => ⟨S_, .f32⟩
  | 43 => ⟨S8388608, .f32⟩
  | 44 => ⟨S8388608, .f32⟩
  | 45 => ⟨S_, .f32⟩
  | 46 => ⟨S8388608, .f32⟩
  | 47 => ⟨S8388608, .f32⟩
  | 48 => ⟨S8388608, .f32⟩
  | 49 => ⟨S8388608, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S8388608x1, .f32⟩
  | 58 => ⟨S8388608x1, .f32⟩
  | 59 => ⟨S8388608x1, .f32⟩
  | 60 => ⟨S8388608x1, .f32⟩
  | 61 => ⟨S8388608x1, .f32⟩
  | 62 => ⟨S8388608x1, .f32⟩
  | 63 => ⟨S8388608x1, .f32⟩
  | 64 => ⟨S8388608x1, .f32⟩
  | 65 => ⟨S8388608x1, .f32⟩
  | 66 => ⟨S8388608x16, .f32⟩
  | _ => ⟨S8388608, .f32⟩

abbrev hbmTy (i : Nat) : BufTy := match i / 128 with
  | 0 => hbmTy0_0 i
  | 1 => hbmTy0_1 i
  | _ => ⟨S8388608, .f32⟩

abbrev bufTy : (tb : Table) → Fin (tcTables nBuf tb) → BufTy
  | .hbm, ⟨i, _⟩ => hbmTy i
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_16 : Ref sig .tc := ⟨.hbm, 67, rfl⟩
abbrev main_v46 : Ref sig .tc := ⟨.hbm, 68, rfl⟩
abbrev main_v47 : Ref sig .tc := ⟨.hbm, 69, rfl⟩
abbrev main_cst_17 : Ref sig .tc := ⟨.hbm, 70, rfl⟩
abbrev main_v48 : Ref sig .tc := ⟨.hbm, 71, rfl⟩
abbrev main_v49 : Ref sig .tc := ⟨.hbm, 72, rfl⟩
abbrev main_cst_18 : Ref sig .tc := ⟨.hbm, 73, rfl⟩
abbrev main_v50 : Ref sig .tc := ⟨.hbm, 74, rfl⟩
abbrev main_v51 : Ref sig .tc := ⟨.hbm, 75, rfl⟩
abbrev main_cst_19 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_20 : Ref sig .tc := ⟨.hbm, 81, rfl⟩
abbrev main_v56 : Ref sig .tc := ⟨.hbm, 82, rfl⟩
abbrev main_v57 : Ref sig .tc := ⟨.hbm, 83, rfl⟩
abbrev main_cst_21 : Ref sig .tc := ⟨.hbm, 84, rfl⟩
abbrev main_v58 : Ref sig .tc := ⟨.hbm, 85, rfl⟩
abbrev main_v59 : Ref sig .tc := ⟨.hbm, 86, rfl⟩
abbrev main_cst_22 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_23 : Ref sig .tc := ⟨.hbm, 92, rfl⟩
abbrev main_v64 : Ref sig .tc := ⟨.hbm, 93, rfl⟩
abbrev main_v65 : Ref sig .tc := ⟨.hbm, 94, rfl⟩
abbrev main_cst_24 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_25 : Ref sig .tc := ⟨.hbm, 100, rfl⟩
abbrev main_v70 : Ref sig .tc := ⟨.hbm, 101, rfl⟩
abbrev main_v71 : Ref sig .tc := ⟨.hbm, 102, rfl⟩
abbrev main_cst_26 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_27 : Ref sig .tc := ⟨.hbm, 108, rfl⟩
abbrev main_v76 : Ref sig .tc := ⟨.hbm, 109, rfl⟩
abbrev main_v77 : Ref sig .tc := ⟨.hbm, 110, rfl⟩
abbrev main_cst_28 : Ref sig .tc := ⟨.hbm, 111, rfl⟩
abbrev main_v78 : Ref sig .tc := ⟨.hbm, 112, rfl⟩
abbrev main_v79 : Ref sig .tc := ⟨.hbm, 113, rfl⟩
abbrev main_cst_29 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_30 : Ref sig .tc := ⟨.hbm, 119, rfl⟩
abbrev main_v84 : Ref sig .tc := ⟨.hbm, 120, rfl⟩
abbrev main_v85 : Ref sig .tc := ⟨.hbm, 121, rfl⟩
abbrev main_cst_31 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_32 : Ref sig .tc := ⟨.hbm, 127, rfl⟩
abbrev main_v90 : Ref sig .tc := ⟨.hbm, 128, rfl⟩
abbrev main_v91 : Ref sig .tc := ⟨.hbm, 129, rfl⟩
abbrev main_cst_33 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_34 : Ref sig .tc := ⟨.hbm, 135, rfl⟩
abbrev main_v96 : Ref sig .tc := ⟨.hbm, 136, rfl⟩
abbrev main_v97 : Ref sig .tc := ⟨.hbm, 137, rfl⟩
abbrev main_cst_35 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_36 : Ref sig .tc := ⟨.hbm, 143, rfl⟩
abbrev main_v102 : Ref sig .tc := ⟨.hbm, 144, rfl⟩
abbrev main_v103 : Ref sig .tc := ⟨.hbm, 145, rfl⟩
abbrev main_cst_37 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_38 : Ref sig .tc := ⟨.hbm, 151, rfl⟩
abbrev main_v108 : Ref sig .tc := ⟨.hbm, 152, rfl⟩
abbrev main_v109 : Ref sig .tc := ⟨.hbm, 153, rfl⟩
abbrev main_cst_39 : Ref sig .tc := ⟨.hbm, 154, rfl⟩
abbrev main_v110 : Ref sig .tc := ⟨.hbm, 155, rfl⟩
abbrev main_v111 : Ref sig .tc := ⟨.hbm, 156, rfl⟩
abbrev main_cst_40 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_41 : Ref sig .tc := ⟨.hbm, 162, rfl⟩
abbrev main_v116 : Ref sig .tc := ⟨.hbm, 163, rfl⟩
abbrev main_v117 : Ref sig .tc := ⟨.hbm, 164, rfl⟩
abbrev main_cst_42 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_43 : Ref sig .tc := ⟨.hbm, 170, rfl⟩
abbrev main_v122 : Ref sig .tc := ⟨.hbm, 171, rfl⟩
abbrev main_v123 : Ref sig .tc := ⟨.hbm, 172, rfl⟩
abbrev main_cst_44 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x1_S8388608x1_S8388608x1_S8388608x1_S8388608x1_S8388608x1_S8388608x1_S8388608x1_S8388608x1_S8388608x1_S8388608x1_S8388608x1_S8388608x16_d1 : Shape.Concatenates [S8388608x1, S8388608x1, S8388608x1, S8388608x1, S8388608x1, S8388608x1, S8388608x1, S8388608x1, S8388608x1, S8388608x1, S8388608x1, S8388608x1, S8388608x1, S8388608x1, S8388608x1, S8388608x1] S8388608x16 1

variable [Facts₀]

class Facts : Prop extends Facts₀ where

variable [Facts]
-- ==== Proof.LibColumnStack.lean ====
/-
  Layout facts about COLUMNS, for any element type and any sizes.

  A length-`n` array made into an `n × 1` column — by a reshape, or by a broadcast along a new unit axis — keeps
  entry `r` at `(r, 0)`; and an `n × K` array assembled by joining `K` such columns side by side (a concatenation
  along the second axis) holds, in column `k`, the `k`-th of them. Together they read "stack K vectors as the columns
  of a matrix" at an index, whichever way a program spells the stack: entry `(r, k)` is the `k`-th vector at `r`.
-/
import Idealize.ShloMosaic.Lib.Pipeline.Value
import Idealize.ShloMosaic.Lib.ValueIdx

noncomputable section

namespace Cert.Lib.ColumnStack

open Idealize.ShloMosaic Idealize.ShloMosaic.ValueIdx

variable {α : Type}

/-- The row an index of an `n × K` array lies in, as an index of a length-`n` array. -/
abbrev rowOf {n K : ℕ} (j : (⟨2, ![n, K]⟩ : Shape).Idx) : (⟨1, ![n]⟩ : Shape).Idx := ix1 ⟨(j 0).val, idx2_lt0 j⟩
/-- The column an index of an `n × K` array lies in. -/
abbrev colOf {n K : ℕ} (j : (⟨2, ![n, K]⟩ : Shape).Idx) : Fin K := ⟨(j 1).val, idx2_lt1 j⟩

/-- The `q`-th of sixteen things. -/
def nth16 {β : Type} (c0 c1 c2 c3 c4 c5 c6 c7 c8 c9 c10 c11 c12 c13 c14 c15 : β) (q : Fin 16) : β :=
  match q with
  | ⟨0, _⟩ => c0 | ⟨1, _⟩ => c1 | ⟨2, _⟩ => c2 | ⟨3, _⟩ => c3
  | ⟨4, _⟩ => c4 | ⟨5, _⟩ => c5 | ⟨6, _⟩ => c6 | ⟨7, _⟩ => c7
  | ⟨8, _⟩ => c8 | ⟨9, _⟩ => c9 | ⟨10, _⟩ => c10 | ⟨11, _⟩ => c11
  | ⟨12, _⟩ => c12 | ⟨13, _⟩ => c13 | ⟨14, _⟩ => c14 | ⟨15, _⟩ => c15
  | ⟨n + 16, h⟩ => absurd h (by omega)

/-- A length-`n` array RESHAPED to an `n × 1` column reads, at an index `j`, the array at `j`'s row: in row-major
    order entry `(r, 0)` of the column and entry `r` of the array are both the `r`-th. -/
theorem shapeCast_column_apply {n : ℕ} (x : (⟨1, ![n]⟩ : Shape).Idx → α)
    (h : (⟨1, ![n]⟩ : Shape).ShapeCasts ⟨2, ![n, 1]⟩) (j : (⟨2, ![n, 1]⟩ : Shape).Idx) :
    shapeCast ⟨2, ![n, 1]⟩ x h j = x (rowOf j) :=
  shapeCast_apply x h j _ (by
    have h1 : (j 1).val < 1 := idx2_lt1 j
    rw [Shape.rowMajor_val_two, Shape.rowMajor_val_one]
    show (j 0).val = (j 0).val * 1 + (j 1).val
    omega)

/-- A length-`n` array BROADCAST to an `n × 1` column (its one axis sent to the first axis of the result) reads, at
    an index `j`, the array at `j`'s row. -/
theorem broadcastInDim_column_apply {n : ℕ} (x : (⟨1, ![n]⟩ : Shape).Idx → α) (dims : Fin 1 → Fin 2) (hd : dims 0 = 0)
    (h : (⟨1, ![n]⟩ : Shape).BroadcastsInDim ⟨2, ![n, 1]⟩ dims) (j : (⟨2, ![n, 1]⟩ : Shape).Idx) :
    broadcastInDim ⟨2, ![n, 1]⟩ dims h x j = x (rowOf j) :=
  broadcastInDim_apply dims h x j _ (fun a => by
    match a with
    | ⟨0, _⟩ =>
      show (j 0).val = if n = 1 then 0 else (j (dims 0)).val
      rw [hd]
      split
      · have := idx2_lt0 j; omega
      · rfl)

/-- COLUMNS SIDE BY SIDE: `K` columns of height `n` (column `k` is `f k`) joined along the second axis into an
    `n × K` array; entry `j` of the array is column `colOf j` at `j`'s row. -/
theorem concatenate_columns_apply {n K : ℕ} (f : Fin K → ((⟨2, ![n, 1]⟩ : Shape).Idx → α))
    (h : Shape.Concatenates ((List.ofFn fun k : Fin K =>
        (⟨⟨2, ![n, 1]⟩, f k⟩ : (s : Shape) × (s.Idx → α))).map (·.1)) ⟨2, ![n, K]⟩ 1)
    (j : (⟨2, ![n, K]⟩ : Shape).Idx) :
    concatenate ⟨2, ![n, K]⟩ 1 (List.ofFn fun k : Fin K => (⟨⟨2, ![n, 1]⟩, f k⟩ : (s : Shape) × (s.Idx → α))) h j
      = f (colOf j) (ix2 ⟨(j 0).val, idx2_lt0 j⟩ (0 : Fin 1)) :=
  concatenate_ofFn_unit_apply (t := ⟨2, ![n, K]⟩) (s₁ := ⟨2, ![n, 1]⟩) (1 : Fin 2) f h rfl rfl j (colOf j) rfl
    (ix2 ⟨(j 0).val, idx2_lt0 j⟩ (0 : Fin 1))
    (fun b hb => by
      match b with
      | ⟨0, _⟩ => rfl
      | ⟨1, _⟩ => exact absurd rfl hb)

end Cert.Lib.ColumnStack

end
-- ==== Proof.Harmonics.lean ====
/-
  The function both programs compute, over the extended reals.

  The inputs are two arrays of the same length N = 8388608: `x` (the cosine of the polar angle) and `φ` (the azimuth).
  The output is an N × 16 array whose row `n` holds the sixteen real spherical harmonics of degree `l ≤ 3` at
  `(x n, φ n)`, in the order `(l, m) = (0,0), (1,-1), (1,0), (1,1), (2,-2), …, (3,3)`:

      column (l, 0)     = N(l,0)        · P_l^0(x)
      column (l, m>0)   = √2 N(l,m)     · P_l^m(x) · cos (m φ)
      column (l, m<0)   = ± √2 N(l,|m|) · P_l^|m|(x) · sin (|m| φ)

  with the associated Legendre functions built by the usual recurrences from `s = √(max 0 (1 − x²))` (the sine of the
  polar angle, clipped at 0):

      P_0^0 = 1,   P_m^m = −(2m−1) · s · P_{m−1}^{m−1},   P_{m+1}^m = (2m+1) · x · P_m^m,
      P_l^m = ((2l−1) · x · P_{l−1}^m − (l+m−1) · P_{l−2}^m) / (l − m).

  Every constant is kept as the 32-bit word the programs carry (`w32`): the same word stands on both sides, so its
  value is never needed. The products are written in the order the programs form them (a literal times a value, then
  times the lower-degree function): no law of arithmetic is used to compare the two programs, only that they are
  this one expression row by row.
-/
import Idealize.ShloMosaic.PureOps.Ideal
import Idealize.ShloMosaic.Lib.ValueIdx
import proofs.«143278_j35820027249310_2_alg».proof.Proof.LibColumnStack

noncomputable section

namespace Cert.Harmonics

open Idealize.ShloMosaic Idealize.ShloMosaic.ValueIdx Cert.Lib.ColumnStack

/-- The extended real a 32-bit float word denotes. -/
abbrev w32 (b : BitVec 32) : EReal := Ideal.ofBits .f32 b

/-- `s = √(max 0 (1 − x²))`: the sine of the polar angle whose cosine is `x`, the radicand clipped at zero. -/
def sinPolar (x : EReal) : EReal :=
  Ideal.sqrt (max (w32 0x00000000#32) (w32 0x3F800000#32 - x * x))

/-- `P_0^0 = 1`. -/
def leg00 : EReal := w32 0x3F800000#32
/-- `P_1^1 = (−1 · s) · P_0^0`. -/
def leg11 (x : EReal) : EReal := w32 0xBF800000#32 * sinPolar x * leg00
/-- `P_2^2 = (−3 · s) · P_1^1`. -/
def leg22 (x : EReal) : EReal := w32 0xC0400000#32 * sinPolar x * leg11 x
/-- `P_3^3 = (−5 · s) · P_2^2`. -/
def leg33 (x : EReal) : EReal := w32 0xC0A00000#32 * sinPolar x * leg22 x
/-- `P_1^0 = (1 · x) · P_0^0`. -/
def leg10 (x : EReal) : EReal := w32 0x3F800000#32 * x * leg00
/-- `P_2^1 = (3 · x) · P_1^1`. -/
def leg21 (x : EReal) : EReal := w32 0x40400000#32 * x * leg11 x
/-- `P_3^2 = (5 · x) · P_2^2`. -/
def leg32 (x : EReal) : EReal := w32 0x40A00000#32 * x * leg22 x
/-- `P_2^0 = ((3 · x) · P_1^0 − 1 · P_0^0) / 2`. -/
def leg20 (x : EReal) : EReal :=
  Ideal.div (w32 0x40400000#32 * x * leg10 x - w32 0x3F800000#32 * leg00) (w32 0x40000000#32)
/-- `P_3^0 = ((5 · x) · P_2^0 − 2 · P_1^0) / 3`. -/
def leg30 (x : EReal) : EReal :=
  Ideal.div (w32 0x40A00000#32 * x * leg20 x - w32 0x40000000#32 * leg10 x) (w32 0x40400000#32)
/-- `P_3^1 = ((5 · x) · P_2^1 − 3 · P_1^1) / 2`. -/
def leg31 (x : EReal) : EReal :=
  Ideal.div (w32 0x40A00000#32 * x * leg21 x - w32 0x40400000#32 * leg11 x) (w32 0x40000000#32)

/-- `sin (k · φ)`, the multiple `k` a float word. -/
def azSin (k : BitVec 32) (φ : EReal) : EReal := Ideal.sin (w32 k * φ)
/-- `cos (k · φ)`, the multiple `k` a float word. -/
def azCos (k : BitVec 32) (φ : EReal) : EReal := Ideal.cos (w32 k * φ)

/-- The sixteen harmonics at one point `(x, φ)`, by column: the normalisation word, times the Legendre function,
    times (for `m ≠ 0`) the sine or cosine of `|m| φ`. -/
def column (k : Fin 16) (x φ : EReal) : EReal :=
  match k with
  | ⟨0, _⟩ => w32 0x3E906EBB#32 * leg00                                 -- (0, 0)
  | ⟨1, _⟩ => w32 0x3EFA2A1C#32 * leg11 x * azSin 0x3F800000#32 φ       -- (1,-1)
  | ⟨2, _⟩ => w32 0x3EFA2A1C#32 * leg10 x                               -- (1, 0)
  | ⟨3, _⟩ => w32 0x3EFA2A1C#32 * leg11 x * azCos 0x3F800000#32 φ       -- (1, 1)
  | ⟨4, _⟩ => w32 0xBE3A762B#32 * leg22 x * azSin 0x40000000#32 φ       -- (2,-2)
  | ⟨5, _⟩ => w32 0x3EBA762B#32 * leg21 x * azSin 0x3F800000#32 φ       -- (2,-1)
  | ⟨6, _⟩ => w32 0x3F217B01#32 * leg20 x                               -- (2, 0)
  | ⟨7, _⟩ => w32 0x3EBA762B#32 * leg21 x * azCos 0x3F800000#32 φ       -- (2, 1)
  | ⟨8, _⟩ => w32 0x3E3A762B#32 * leg22 x * azCos 0x40000000#32 φ       -- (2, 2)
  | ⟨9, _⟩ => w32 0x3D211F09#32 * leg33 x * azSin 0x40400000#32 φ       -- (3,-3)
  | ⟨10, _⟩ => w32 0xBDC55519#32 * leg32 x * azSin 0x40000000#32 φ      -- (3,-2)
  | ⟨11, _⟩ => w32 0x3E9C0145#32 * leg31 x * azSin 0x3F800000#32 φ      -- (3,-1)
  | ⟨12, _⟩ => w32 0x3F3F10F8#32 * leg30 x                              -- (3, 0)
  | ⟨13, _⟩ => w32 0x3E9C0145#32 * leg31 x * azCos 0x3F800000#32 φ      -- (3, 1)
  | ⟨14, _⟩ => w32 0x3DC55519#32 * leg32 x * azCos 0x40000000#32 φ      -- (3, 2)
  | ⟨15, _⟩ => w32 0x3D211F09#32 * leg33 x * azCos 0x40400000#32 φ      -- (3, 3)
  | ⟨n + 16, h⟩ => absurd h (by omega)

/-- THE RESULT: entry `(r, k)` of the `n × 16` array is harmonic `k` at `(x r, φ r)`. Stated for any length `n`:
    the whole array has `n = 8388608`, one block of it `n = 4096`. -/
def table {n : Nat} (x φ : (⟨1, ![n]⟩ : Shape).Idx → EReal) : (⟨2, ![n, 16]⟩ : Shape).Idx → EReal :=
  fun j => column (colOf j) (x (rowOf j)) (φ (rowOf j))

/-- THE TABLE OF A BLOCK IS THE BLOCK OF THE TABLE. Row `r` of the table depends on `x r` and `φ r` alone, so if a short
    pair `(x, φ)` agrees at `j`'s row with a long pair `(X, Φ)` at `i`'s row, and `i` and `j` lie in the same column, the
    two tables agree there. -/
theorem table_restrict {n N : Nat} (x φ : (⟨1, ![n]⟩ : Shape).Idx → EReal) (X Φ : (⟨1, ![N]⟩ : Shape).Idx → EReal)
    (j : (⟨2, ![n, 16]⟩ : Shape).Idx) (i : (⟨2, ![N, 16]⟩ : Shape).Idx)
    (hcol : (i 1).val = (j 1).val) (hx : x (rowOf j) = X (rowOf i)) (hφ : φ (rowOf j) = Φ (rowOf i)) :
    table x φ j = table X Φ i := by
  unfold table
  rw [hx, hφ, show colOf i = colOf j from Fin.ext hcol]

end Cert.Harmonics

end
-- ==== Proof.KernelBlock.lean ====
/-
  What the kernel body leaves in its output block.

  The body loads a block `x` of 4096 cosines and a block `φ` of 4096 azimuths, forms sixteen length-4096 vectors (one
  per harmonic), reshapes each to a 4096 × 1 column and joins the columns into the 4096 × 16 block it stores whole.
  So entry `(p, q)` of the block is the `q`-th vector at `p` (`stack_apply`: the layout, for ANY sixteen vectors), and
  the `q`-th vector at `p` is harmonic `q` at `(x p, φ p)` — every operation of the body acts entry by entry and is, on
  the extended reals, the operation the table is written with, so that second step is by unfolding alone (`block_eq`).
-/
import proofs.«143278_j35820027249310_2_alg».proof.Proof.Gen.KernelIdeal.Frame
import proofs.«143278_j35820027249310_2_alg».proof.Proof.Harmonics
import proofs.«143278_j35820027249310_2_alg».proof.Proof.LibColumnStack

set_option maxRecDepth 16384

noncomputable section

namespace Cert.KernelIdeal.Block

open Cert.KernelIdeal Cert.KernelIdeal.Gen Idealize.ShloMosaic Idealize.ShloMosaic.ValueIdx
open Cert.Harmonics Cert.Lib.ColumnStack

/-- The origin of a rank-2 block, as a constant function. -/
theorem origin2 : (![0, 0] : Fin 2 → Nat) = fun _ => 0 := funext fun a => by fin_cases a <;> rfl
/-- The origin of a rank-1 block, as a constant function. -/
theorem origin1 : (![0] : Fin 1 → Nat) = fun _ => 0 := funext fun a => by fin_cases a; rfl

/-- THE LAYOUT: sixteen vectors stacked as the columns of a 4096 × 16 block; entry `y` is the vector numbered by
    `y`'s column, at `y`'s row. (Each vector becomes a column by a reshape; the columns are joined side by side.) -/
theorem stack_apply (c0 c1 c2 c3 c4 c5 c6 c7 c8 c9 c10 c11 c12 c13 c14 c15 : FVec Ideal S4096 .f32) (y : S4096x16.Idx) :
    k0_pay1 c0 c1 c2 c3 c4 c5 c6 c7 c8 c9 c10 c11 c12 c13 c14 c15 y = nth16 c0 c1 c2 c3 c4 c5 c6 c7 c8 c9 c10 c11 c12 c13 c14 c15 (colOf y) (rowOf y) := by
  simp only [k0_pay1]
  show concatenate S4096x16 1 (List.ofFn fun k : Fin 16 =>
      (⟨S4096x1, shapeCast S4096x1 (nth16 c0 c1 c2 c3 c4 c5 c6 c7 c8 c9 c10 c11 c12 c13 c14 c15 k) _⟩ : (s : Shape) × (s.Idx → Ideal .f32))) _ y = _
  exact (concatenate_columns_apply (fun k : Fin 16 => shapeCast S4096x1 (nth16 c0 c1 c2 c3 c4 c5 c6 c7 c8 c9 c10 c11 c12 c13 c14 c15 k) _) _ y).trans
    (shapeCast_column_apply _ _ _)

/-- THE BLOCK: from input blocks `x` and `φ` the body leaves the table of harmonics of `(x, φ)`, a 4096 × 16 array.
    The one store covers the whole block, so the block is the stored value; its entry in column `q` is the `q`-th
    vector, which unfolds to harmonic `q`. -/
theorem block_eq (x : Vec Ideal S4096 .f32) (φ : Vec Ideal S4096 .f32) :
    out0_2 (F := Ideal) x φ = table (n := 4096) x φ := by
  unfold out0_2
  rw [View.canon_unit_zero origin2]
  simp only [View.ld_unit_zero (S := S4096) origin1]
  funext y
  rw [stack_apply]
  obtain ⟨p, q, rfl⟩ : ∃ (p : Fin 4096) (q : Fin 16), y = ix2 p q := ⟨y 0, y 1, eq_ix2 y⟩
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨n + 16, h⟩ => exact absurd h (by omega)

end Cert.KernelIdeal.Block

end
-- ==== Proof.KernelArray.lean ====
/-
  From blocks to the whole array: after the kernel's run its output array IS the table of harmonics of its two
  argument arrays.

  The grid has 2048 points. At point `t` each input window holds rows `4096 t … 4096 t + 4095` of its argument and
  the output window's block is rows `4096 t … 4096 t + 4095`, all 16 columns, of the result (`block_numbers`, decided
  over the grid). The body leaves in that block the table of the two input blocks (`Block.block_eq`), and the table of
  a block is the block of the table (`Harmonics.table_restrict`): so what point `t` writes back is block `t` of the
  table of the whole arguments (`flushed_eq`). Row `r` of the result lies in the block of point `r / 4096`, so the
  blocks cover the array (`cover`), and the array ends as that table (`final`, `run`).
-/
import proofs.«143278_j35820027249310_2_alg».proof.Proof.KernelBlock
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Harmonics Cert.Lib.ColumnStack

variable (m : (ℓ : Loc nD τ sig) → Buf (Elt Ideal) ℓ) (ρ : Dev nD → PrngReg)

/-- The printed index maps, decided over the 2048 grid points: along the long axis every window's block number is
    the point's number; along the 16 columns the output's block number is 0. -/
theorem block_numbers : ∀ t : Fin cfg0.N, win0_0.index t (0 : Fin 1) = t.val ∧ win0_1.index t (0 : Fin 1) = t.val
    ∧ win0_2.index t (0 : Fin 2) = t.val ∧ win0_2.index t (1 : Fin 2) = 0 :=
  (by decide +kernel : ∀ t : Fin grid0.N, _)

/-- WHAT POINT `t` WRITES BACK is block `t` of the table of the argument arrays as the region finds them. -/
theorem flushed_eq (c : Dev nD) (t : Fin cfg0.N) :
    (dats m 0 c).flushed 2 t
      = ((cfg0.win 2).blk t).view.read (Elt Ideal) (table (n := 8388608) (V m c main_arg0) (V m c main_arg1)) := by
  show (cfg0.win 2).cut (grid0.coords t) ((dats m 0 c).after 2 t) = _
  rw [after0_2, Block.block_eq]
  obtain ⟨e0, e1, e2, e3⟩ := block_numbers t
  funext j
  have hj0 : (j 0).val < 4096 := (j 0).isLt
  refine table_restrict (n := 4096) (N := 8388608) (iblk m c 0 t) (iblk m c 1 t) (V m c main_arg0) (V m c main_arg1)
    j (((cfg0.win 2).blk t).view.emb j) ?_ ?_ ?_
  · show win0_2.index t (1 : Fin 2) * 16 + 1 * (j 1).val = (j 1).val
    omega
  · show V m c main_arg0 (((cfg0.win 0).blk t).view.emb (rowOf j)) = V m c main_arg0 (rowOf (((cfg0.win 2).blk t).view.emb j))
    refine congrArg _ (funext fun a => Fin.ext ?_)
    match a with
    | ⟨0, _⟩ =>
      show win0_0.index t (0 : Fin 1) * 4096 + 1 * (j 0).val = win0_2.index t (0 : Fin 2) * 4096 + 1 * (j 0).val
      omega
  · show V m c main_arg1 (((cfg0.win 1).blk t).view.emb (rowOf j)) = V m c main_arg1 (rowOf (((cfg0.win 2).blk t).view.emb j))
    refine congrArg _ (funext fun a => Fin.ext ?_)
    match a with
    | ⟨0, _⟩ =>
      show win0_1.index t (0 : Fin 1) * 4096 + 1 * (j 0).val = win0_2.index t (0 : Fin 2) * 4096 + 1 * (j 0).val
      omega

/-- An index of the result is in point `t`'s block iff each coordinate is in the block's range on its axis. -/
theorem mem_blk (t : Fin cfg0.N) (i : S8388608x16.Idx) :
    i ∈ ((cfg0.win 2).blk t).view.set ↔ ∀ a : Fin 2, win0_2.index t a * S4096x16.size a ≤ (i a).val
      ∧ (i a).val < win0_2.index t a * S4096x16.size a + S4096x16.size a := by
  show i ∈ ((View.whole main_v0).slice (win0_2.rect t)).set ↔ _
  rw [View.set_slice_whole, Rect.mem_set_unit]
  exact Iff.rfl

/-- THE BLOCKS COVER THE RESULT: row `r` is in the block of point `r / 4096`, and every point writes back. -/
theorem cover (i : S8388608x16.Idx) :
    ∃ t : Fin cfg0.N, (cfg0.win 2).flush t = true ∧ i ∈ ((cfg0.win 2).blk t).view.set := by
  have hi0 : (i 0).val < 8388608 := (i 0).isLt
  have hi1 : (i 1).val < 16 := (i 1).isLt
  have ht : (i 0).val / 4096 < 2048 := by omega
  obtain ⟨-, -, e2, e3⟩ := block_numbers ⟨(i 0).val / 4096, ht⟩
  refine ⟨⟨(i 0).val / 4096, ht⟩, flush0_2 _, ?_⟩
  rw [mem_blk]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    have e2' : win0_2.index ⟨(i 0).val / 4096, ht⟩ (0 : Fin 2) = (i 0).val / 4096 := e2
    omega
  | ⟨1, _⟩ =>
    show win0_2.index ⟨(i 0).val / 4096, ht⟩ (1 : Fin 2) * 16 ≤ (i 1).val
      ∧ (i 1).val < win0_2.index ⟨(i 0).val / 4096, ht⟩ (1 : Fin 2) * 16 + 16
    omega

/-- THE RESULT ARRAY after the run is the table of the argument arrays as launched. -/
theorem final (c : Dev nD) :
    (dats m 0 c).arrAt 2 cfg0.N
      = table (n := 8388608) (m ((c : Thread nD τ).loc main_arg0)) (m ((c : Thread nD τ).loc main_arg1)) :=
  (dats m 0 c).arrAt_eq_of_cover 2 _ (fun t _ => flushed_eq m c t) cover

/-- THE KERNEL'S RUN: every weakly fair execution terminates with the result array at the table of the arguments and
    the arguments unchanged. (The frame run, its post read: each array of the call ends at `arrAt` of its window —
    for the output that is `final`; an input window never writes back, so its array is as the region found it.) -/
theorem run : θ_run defs (onTc (τ := τ) (main (F := Ideal))) ⟨m, fun _ => 0, ρ⟩ fun r => ∀ c : Dev nD,
      r.2.mem ((c : Thread nD τ).loc main_v0)
        = table (n := 8388608) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans (final m c),
       ((h c).1 0).trans (((dats m 0 c).arrAt_in 0 rfl _).trans (A_eq m c 0)),
       ((h c).1 1).trans (((dats m 0 c).arrAt_in 1 rfl _).trans (A_eq m c 1))⟩)
    (run_main m ρ)

end Cert.KernelIdeal.Whole

end
-- ==== Proof.ReferenceArray.lean ====
/-
  The reference's result is the table of harmonics of its two argument arrays.

  The reference forms the same sixteen vectors as whole arrays of length 8388608 — the clipped square root, the
  Legendre recurrences, the sines and cosines — makes each a column by a broadcast along a new unit axis and joins
  the columns side by side. So entry `(r, k)` of its result is the `k`-th vector at `r` (`stack_apply`: the layout), and
  the `k`-th vector at `r` is harmonic `k` at `(X r, Φ r)`: every stage acts entry by entry — a constant broadcast
  over the array reads its one value everywhere — and the host's square root, sine, cosine and quotient are, on the
  extended reals, the functions the table is written with, so that step is by unfolding alone (`result_eq`).
-/
import proofs.«143278_j35820027249310_2_alg».proof.Proof.Gen.ReferenceIdeal.Read
import proofs.«143278_j35820027249310_2_alg».proof.Proof.Harmonics
import proofs.«143278_j35820027249310_2_alg».proof.Proof.LibColumnStack

set_option maxRecDepth 16384

noncomputable section

namespace Cert.ReferenceIdeal.Whole

open Cert.ReferenceIdeal Cert.ReferenceIdeal.Gen Cert.ReferenceIdeal.Read Idealize.ShloMosaic Idealize.ShloMosaic.ValueIdx
open Cert.Harmonics Cert.Lib.ColumnStack

/-- THE LAYOUT, for ANY sixteen whole-length vectors: each broadcast to a column, the columns joined side by side;
    entry `j` of the result is the vector numbered by `j`'s column, at `j`'s row. -/
theorem columns_apply (c0 c1 c2 c3 c4 c5 c6 c7 c8 c9 c10 c11 c12 c13 c14 c15 : (⟨S8388608, .f32⟩ : BufTy).Contents (Elt Ideal))
    (hb : S8388608.BroadcastsInDim S8388608x1 (![0] : Fin 1 → Fin S8388608x1.rank))
    (hc : Shape.Concatenates (([⟨S8388608x1, broadcastInDim S8388608x1 ![0] hb c0⟩, ⟨S8388608x1, broadcastInDim S8388608x1 ![0] hb c1⟩, ⟨S8388608x1, broadcastInDim S8388608x1 ![0] hb c2⟩, ⟨S8388608x1, broadcastInDim S8388608x1 ![0] hb c3⟩, ⟨S8388608x1, broadcastInDim S8388608x1 ![0] hb c4⟩, ⟨S8388608x1, broadcastInDim S8388608x1 ![0] hb c5⟩, ⟨S8388608x1, broadcastInDim S8388608x1 ![0] hb c6⟩, ⟨S8388608x1, broadcastInDim S8388608x1 ![0] hb c7⟩, ⟨S8388608x1, broadcastInDim S8388608x1 ![0] hb c8⟩, ⟨S8388608x1, broadcastInDim S8388608x1 ![0] hb c9⟩, ⟨S8388608x1, broadcastInDim S8388608x1 ![0] hb c10⟩, ⟨S8388608x1, broadcastInDim S8388608x1 ![0] hb c11⟩, ⟨S8388608x1, broadcastInDim S8388608x1 ![0] hb c12⟩, ⟨S8388608x1, broadcastInDim S8388608x1 ![0] hb c13⟩, ⟨S8388608x1, broadcastInDim S8388608x1 ![0] hb c14⟩, ⟨S8388608x1, broadcastInDim S8388608x1 ![0] hb c15⟩] : List ((s : Shape) × (s.Idx → Ideal .f32))).map (·.1)) S8388608x16 1)
    (j : S8388608x16.Idx) :
    concatenate S8388608x16 1 [⟨S8388608x1, broadcastInDim S8388608x1 ![0] hb c0⟩, ⟨S8388608x1, broadcastInDim S8388608x1 ![0] hb c1⟩, ⟨S8388608x1, broadcastInDim S8388608x1 ![0] hb c2⟩, ⟨S8388608x1, broadcastInDim S8388608x1 ![0] hb c3⟩, ⟨S8388608x1, broadcastInDim S8388608x1 ![0] hb c4⟩, ⟨S8388608x1, broadcastInDim S8388608x1 ![0] hb c5⟩, ⟨S8388608x1, broadcastInDim S8388608x1 ![0] hb c6⟩, ⟨S8388608x1, broadcastInDim S8388608x1 ![0] hb c7⟩, ⟨S8388608x1, broadcastInDim S8388608x1 ![0] hb c8⟩, ⟨S8388608x1, broadcastInDim S8388608x1 ![0] hb c9⟩, ⟨S8388608x1, broadcastInDim S8388608x1 ![0] hb c10⟩, ⟨S8388608x1, broadcastInDim S8388608x1 ![0] hb c11⟩, ⟨S8388608x1, broadcastInDim S8388608x1 ![0] hb c12⟩, ⟨S8388608x1, broadcastInDim S8388608x1 ![0] hb c13⟩, ⟨S8388608x1, broadcastInDim S8388608x1 ![0] hb c14⟩, ⟨S8388608x1, broadcastInDim S8388608x1 ![0] hb c15⟩] hc j = nth16 c0 c1 c2 c3 c4 c5 c6 c7 c8 c9 c10 c11 c12 c13 c14 c15 (colOf j) (rowOf j) := by
  show concatenate S8388608x16 1 (List.ofFn fun k : Fin 16 =>
      (⟨S8388608x1, broadcastInDim S8388608x1 ![0] hb (nth16 c0 c1 c2 c3 c4 c5 c6 c7 c8 c9 c10 c11 c12 c13 c14 c15 k)⟩ : (s : Shape) × (s.Idx → Ideal .f32))) _ j = _
  exact (concatenate_columns_apply (fun k : Fin 16 => broadcastInDim S8388608x1 ![0] hb (nth16 c0 c1 c2 c3 c4 c5 c6 c7 c8 c9 c10 c11 c12 c13 c14 c15 k)) _ j).trans
    (broadcastInDim_column_apply _ ![0] rfl hb _)

/-- The reference's result at an entry `j`: of the sixteen vectors it stacks, the one numbered by `j`'s column, at
    `j`'s row. -/
theorem stack_apply (X Φ : (⟨S8388608, .f32⟩ : BufTy).Contents (Elt Ideal)) (j : S8388608x16.Idx) :
    val_main_v144 (F := Ideal) X Φ j
      = nth16 (val_main_v49 (F := Ideal)) (val_main_v55 X Φ) (val_main_v57 X) (val_main_v63 X Φ) (val_main_v69 X Φ) (val_main_v75 X Φ) (val_main_v77 X) (val_main_v83 X Φ) (val_main_v89 X Φ) (val_main_v95 X Φ) (val_main_v101 X Φ) (val_main_v107 X Φ) (val_main_v109 X) (val_main_v115 X Φ) (val_main_v121 X Φ) (val_main_v127 X Φ) (colOf j) (rowOf j) := by
  unfold val_main_v144
  exact columns_apply (val_main_v49 (F := Ideal)) (val_main_v55 X Φ) (val_main_v57 X) (val_main_v63 X Φ) (val_main_v69 X Φ) (val_main_v75 X Φ) (val_main_v77 X) (val_main_v83 X Φ) (val_main_v89 X Φ) (val_main_v95 X Φ) (val_main_v101 X Φ) (val_main_v107 X Φ) (val_main_v109 X) (val_main_v115 X Φ) (val_main_v121 X Φ) (val_main_v127 X Φ) Facts₀.bcast_S8388608_S8388608x1_0 _ j

/-- THE RESULT: the reference's result array, as a function of its argument arrays, is the table of harmonics. -/
theorem result_eq (X Φ : (⟨S8388608, .f32⟩ : BufTy).Contents (Elt Ideal)) :
    val_main_v144 (F := Ideal) X Φ = table (n := 8388608) X Φ := by
  funext j
  rw [stack_apply]
  obtain ⟨p, q, rfl⟩ : ∃ (p : Fin 8388608) (q : Fin 16), j = ix2 p q := ⟨j 0, j 1, eq_ix2 j⟩
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨n + 16, h⟩ => exact absurd h (by omega)

end Cert.ReferenceIdeal.Whole

end
-- ==== Proof.lean ====
/-
  Real spherical harmonics up to degree 3, tiled, against the whole-array computation: the two are equal over the
  extended reals.

  THE PROGRAMS. Both take an array `x` of 8388608 cosines of the polar angle and an array `φ` of as many azimuths,
  and return the 8388608 × 16 array whose row `n` holds the sixteen harmonics of degree `l ≤ 3` at `(x n, φ n)`: the
  associated Legendre functions by their recurrences from `√(max 0 (1 − x²))`, times a normalisation constant, times
  `sin (|m| φ)` or `cos (m φ)` (Proof/Harmonics.lean writes the function out: `table`). The kernel cuts the rows into
  2048 blocks of 4096 and computes one block per grid point; the reference computes whole arrays. Row `n` of the
  result depends on `x n` and `φ n` alone, which is why the tiling does not matter; and the two programs form the same
  expression with the same constants (word for word), which is why no law of arithmetic is needed and the proof never
  uses that the inputs are finite.

  THE PROOF.
  * The kernel (Proof/KernelBlock.lean, Proof/KernelArray.lean): at a grid point the body leaves in its output block
    the table of its two input blocks; the table of a block is the block of the table; the blocks cover the result;
    so the kernel's run ends with the result at `table x φ`.
  * The reference (Proof/ReferenceArray.lean): its run ends with the result at the composition of its stages, which
    read at an index is `table x φ`.
  * Both stack sixteen vectors as the columns of a matrix, the kernel by reshapes and the reference by broadcasts;
    Proof/LibColumnStack.lean reads either stack at an index.
  The three frame claims are the generated frame proofs (the reference's is its generated run with the result
  dropped); the idealization rewrote nothing, so `preserves` has nothing to state.
-/
import proofs.«143278_j35820027249310_2_alg».proof.Defs
import proofs.«143278_j35820027249310_2_alg».proof.Proof.Gen.Kernel
import proofs.«143278_j35820027249310_2_alg».proof.Proof.Gen.Kernel.Skeleton
import proofs.«143278_j35820027249310_2_alg».proof.Proof.Gen.Kernel.Launch
import proofs.«143278_j35820027249310_2_alg».proof.Proof.Gen.Kernel.Points
import proofs.«143278_j35820027249310_2_alg».proof.Proof.Gen.Kernel.Frame
import proofs.«143278_j35820027249310_2_alg».proof.Proof.Gen.KernelIdeal
import proofs.«143278_j35820027249310_2_alg».proof.Proof.Gen.KernelIdeal.Skeleton
import proofs.«143278_j35820027249310_2_alg».proof.Proof.Gen.KernelIdeal.Launch
import proofs.«143278_j35820027249310_2_alg».proof.Proof.Gen.KernelIdeal.Points
import proofs.«143278_j35820027249310_2_alg».proof.Proof.Gen.KernelIdeal.Frame
import proofs.«143278_j35820027249310_2_alg».proof.Proof.Gen.ReferenceIdeal
import proofs.«143278_j35820027249310_2_alg».proof.Proof.Gen.Pre_finite_inputs
import proofs.«143278_j35820027249310_2_alg».proof.Proof.Gen.ReferenceIdeal.Run
import proofs.«143278_j35820027249310_2_alg».proof.Proof.Gen.ReferenceIdeal.Read
import proofs.«143278_j35820027249310_2_alg».proof.Proof.KernelArray
import proofs.«143278_j35820027249310_2_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation: there is nothing to state. -/
theorem preserves : Cert.preserves_Kernel_KernelIdeal := trivial

/-- From memories that agree on `x` and `φ`, both programs end with the result array at the table of harmonics of
    `(x, φ)`: the kernel block by block, the reference whole. -/
theorem algebraic : Cert.algebraic_KernelIdeal_ReferenceIdeal := by
  intro m ρ m' ρ' _ hagree
  refine ⟨fun c => Cert.Harmonics.table (n := 8388608)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v144_eq, Cert.ReferenceIdeal.Whole.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
